-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v13)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v13) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v13) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x256 : Shape := ⟨2, ![100000, 256]⟩
abbrev S256x64 : Shape := ⟨2, ![256, 64]⟩
abbrev S1200000 : Shape := ⟨1, ![1200000]⟩
abbrev S_ : Shape := ⟨0, ![]⟩

class Facts : Prop where
  bcast_S_S100000x256 : S_.BroadcastsInDim S100000x256 (![] : Fin 0 → Fin S100000x256.rank)
  reducesTo_S100000x256_S_d0_1 : S100000x256.ReducesTo [0, 1] S_
  h_S_ : 0 < S_.numel
  bcast_S_S256x64 : S_.BroadcastsInDim S256x64 (![] : Fin 0 → Fin S256x64.rank)
  reducesTo_S256x64_S_d0_1 : S256x64.ReducesTo [0, 1] S_
  bcast_S_S1200000 : S_.BroadcastsInDim S1200000 (![] : Fin 0 → Fin S1200000.rank)
  reducesTo_S1200000_S_d0 : S1200000.ReducesTo [0] S_

variable [Facts]

def fn {F : FTy → Type} [FloatOps F] (main_arg0 : FVec F S100000x256 .f32) (main_arg1 : FVec F S256x64 .f32) (main_arg2 : IVec S1200000 32) (main_arg3 : IVec S1200000 32) (main_arg4 : FVec F S1200000 .f32) : IVec S_ 1 :=
  let main_v0 : FVec F S100000x256 .f32 := Host.absf main_arg0
  let main_cst : FVec F S_ .f32 := constant S_ .f32 0x7F800000#32
  let main_v1 : FVec F S100000x256 .f32 := broadcastInDim S100000x256 ![] bcast_S_S100000x256 main_cst
  let main_v2 : IVec S100000x256 1 := cmpf .olt main_v0 main_v1
  let main_c : IVec S_ 1 := constantI S_ 1 1#1
  let main_v3 : IVec S_ 1 := (fun x v => Host.reduce IntOp.andi x v reducesTo_S100000x256_S_d0_1 h_S_) main_v2 main_c
  let main_v4 : FVec F S256x64 .f32 := Host.absf main_arg1
  let main_cst_0 : FVec F S_ .f32 := constant S_ .f32 0x7F800000#32
  let main_v5 : FVec F S256x64 .f32 := broadcastInDim S256x64 ![] bcast_S_S256x64 main_cst_0
  let main_v6 : IVec S256x64 1 := cmpf .olt main_v4 main_v5
  let main_c_1 : IVec S_ 1 := constantI S_ 1 1#1
  let main_v7 : IVec S_ 1 := (fun x v => Host.reduce IntOp.andi x v reducesTo_S256x64_S_d0_1 h_S_) main_v6 main_c_1
  let main_v8 : IVec S_ 1 := andi main_v3 main_v7
  let main_v9 : FVec F S1200000 .f32 := Host.absf main_arg4
  let main_cst_2 : FVec F S_ .f32 := constant S_ .f32 0x7F800000#32
  let main_v10 : FVec F S1200000 .f32 := broadcastInDim S1200000 ![] bcast_S_S1200000 main_cst_2
  let main_v11 : IVec S1200000 1 := cmpf .olt main_v9 main_v10
  let main_c_3 : IVec S_ 1 := constantI S_ 1 1#1
  let main_v12 : IVec S_ 1 := (fun x v => Host.reduce IntOp.andi x v reducesTo_S1200000_S_d0 h_S_) main_v11 main_c_3
  let main_v13 : IVec S_ 1 := andi main_v8 main_v12
  main_v13
-- ==== Kernel.lean ====
abbrev S100000x256 : Shape := ⟨2, ![100000, 256]⟩
abbrev S256x64 : Shape := ⟨2, ![256, 64]⟩
abbrev S1200000 : Shape := ⟨1, ![1200000]⟩
abbrev S100000x64 : Shape := ⟨2, ![100000, 64]⟩
abbrev S5000x256 : Shape := ⟨2, ![5000, 256]⟩
abbrev S5000x64 : Shape := ⟨2, ![5000, 64]⟩
abbrev S1200000x1 : Shape := ⟨2, ![1200000, 1]⟩
abbrev S_ : Shape := ⟨0, ![]⟩
abbrev S1200000x64 : Shape := ⟨2, ![1200000, 64]⟩

abbrev nBuf : Space → Nat
  | .hbm => 22
  | .vmem => 5
  | .smem => 0
  | _ => 0

abbrev bufTy : (tb : Table) → Fin (tcTables nBuf tb) → BufTy
  | .hbm, ⟨0, _⟩ => ⟨S100000x256, .f32⟩
  | .hbm, ⟨1, _⟩ => ⟨S256x64, .f32⟩
  | .hbm, ⟨2, _⟩ => ⟨S1200000, .i32⟩
  | .hbm, ⟨3, _⟩ => ⟨S1200000, .i32⟩
  | .hbm, ⟨4, _⟩ => ⟨S1200000, .f32⟩
  | .hbm, ⟨5, _⟩ => ⟨S100000x64, .f32⟩
  | .hbm, ⟨6, _⟩ => ⟨S1200000x1, .f32⟩
  | .hbm, ⟨7, _⟩ => ⟨S_, .i32⟩
  | .hbm, ⟨8, _⟩ => ⟨S1200000, .i32⟩
  | .hbm, ⟨9, _⟩ => ⟨S1200000, .i1⟩
  | .hbm, ⟨10, _⟩ => ⟨S_, .i32⟩
  | .hbm, ⟨11, _⟩ => ⟨S1200000, .i32⟩
  | .hbm, ⟨12, _⟩ => ⟨S1200000, .i32⟩
  | .hbm, ⟨13, _⟩ => ⟨S1200000, .i32⟩
  | .hbm, ⟨14, _⟩ => ⟨S1200000x1, .i32⟩
  | .hbm, ⟨15, _⟩ => ⟨S1200000x64, .f32⟩
  | .hbm, ⟨16, _⟩ => ⟨S1200000x64, .f32⟩
  | .hbm, ⟨17, _⟩ => ⟨S1200000x64, .f32⟩
  | .hbm, ⟨18, _⟩ => ⟨S_, .f32⟩
  | .hbm, ⟨19, _⟩ => ⟨S100000x64, .f32⟩
  | .hbm, ⟨20, _⟩ => ⟨S1200000x1, .i32⟩
  | .hbm, ⟨21, _⟩ => ⟨S100000x64, .f32⟩
  | .local _ .vmem, ⟨0, _⟩ => ⟨S5000x256, .f32⟩
  | .local _ .vmem, ⟨1, _⟩ => ⟨S5000x256, .f32⟩
  | .local _ .vmem, ⟨2, _⟩ => ⟨S256x64, .f32⟩
  | .local _ .vmem, ⟨3, _⟩ => ⟨S5000x64, .f32⟩
  | .local _ .vmem, ⟨4, _⟩ => ⟨S5000x64, .f32⟩
  | _, _ => ⟨S100000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_c : Ref sig .tc := ⟨.hbm, 7, rfl⟩
abbrev main_v2 : Ref sig .tc := ⟨.hbm, 8, rfl⟩
abbrev main_v3 : Ref sig .tc := ⟨.hbm, 9, rfl⟩
abbrev main_c_0 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  inb_S5000x256_S5000x256_0_0 : ∀ a, (![0, 0] : Fin 2 → Nat) a + S5000x256.size a ≤ S5000x256.size a
  h_S5000x256 : 0 < S5000x256.numel
  bitsLt_bf16_f32 : FTy.bits .bf16 < FTy.bits .f32
  inb_S256x64_S256x64_0_0 : ∀ a, (![0, 0] : Fin 2 → Nat) a + S256x64.size a ≤ S256x64.size a
  h_S256x64 : 0 < S256x64.numel
  inb_S5000x64_S5000x64_0_0 : ∀ a, (![0, 0] : Fin 2 → Nat) a + S5000x64.size a ≤ S5000x64.size a
  h_S5000x64 : 0 < S5000x64.numel
  bcast_S1200000_S1200000x1_0 : S1200000.BroadcastsInDim S1200000x1 (![0] : Fin 1 → Fin S1200000x1.rank)
  bcast_S_S1200000 : S_.BroadcastsInDim S1200000 (![] : Fin 0 → Fin S1200000.rank)
  bcast_S1200000x1_S1200000x64_0_1 : S1200000x1.BroadcastsInDim S1200000x64 (![0, 1] : Fin 2 → Fin S1200000x64.rank)
  bcast_S_S100000x64 : S_.BroadcastsInDim S100000x64 (![] : Fin 0 → Fin S100000x64.rank)
  dot_S5000x256_S256x64_S5000x64_1_0_0_1_n_n_wf : DotDims.WF S5000x256 S256x64 S5000x64 [1] [0] [0] [1] [] []
  gather_S100000x64_S1200000x1_S1200000x64_1_0_n_n_0_1_164_wf : GatherDims.WF S100000x64 S1200000x1 S1200000x64 [1] [0] [] [0] [] 1 ![1, 64]
  scatter_S100000x64_S1200000x1_S1200000x64_1_0_0_1_wf : ScatterDims.WF S100000x64 S1200000x1 S1200000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x256.size a ≤ S100000x256.size a
  hwx0_0 : ∀ i : grid0.Coords, EltTy.bits .f32 = 32 ∨ (Rect.block (s := S100000x256) S5000x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x64.size a ≤ S256x64.size a
  hwx0_1 : ∀ i : grid0.Coords, EltTy.bits .f32 = 32 ∨ (Rect.block (s := S256x64) S256x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x64.size a ≤ S100000x64.size a
  hwx0_2 : ∀ i : grid0.Coords, EltTy.bits .f32 = 32 ∨ (Rect.block (s := S100000x64) S5000x64.size (cc0_transform_2 i) (hinb0_2 i)).WholeWords (EltTy.packing .f32)

variable [Facts₀]

def dot_S5000x256_S256x64_S5000x64_1_0_0_1_n_n : DotDims S5000x256 S256x64 S5000x64 where
  lhsContracting := [1]
  rhsContracting := [0]
  lhsNonContracting := [0]
  rhsNonContracting := [1]
  lhsBatch := []
  rhsBatch := []
  wf := dot_S5000x256_S256x64_S5000x64_1_0_0_1_n_n_wf
def gather_S100000x64_S1200000x1_S1200000x64_1_0_n_n_0_1_164 : GatherDims S100000x64 S1200000x1 S1200000x64 where
  offsetDims := [1]
  collapsedSliceDims := [0]
  operandBatchingDims := []
  startIndicesBatchingDims := []
  startIndexMap := [0]
  indexVectorDim := 1
  sliceSizes := ![1, 64]
  wf := gather_S100000x64_S1200000x1_S1200000x64_1_0_n_n_0_1_164_wf
def scatter_S100000x64_S1200000x1_S1200000x64_1_0_0_1 : ScatterDims S100000x64 S1200000x1 S1200000x64 where
  updateWindowDims := [1]
  insertedWindowDims := [0]
  scatterDimsToOperandDims := [0]
  indexVectorDim := 1
  wf := scatter_S100000x64_S1200000x1_S1200000x64_1_0_0_1_wf

abbrev win0_0 : Pipeline.Window sig grid0 :=
  Pipeline.Window.ofSpec (Memref.whole main_arg0) S5000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S256x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S5000x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S100000x256 : Shape := ⟨2, ![100000, 256]⟩
abbrev S256x64 : Shape := ⟨2, ![256, 64]⟩
abbrev S1200000 : Shape := ⟨1, ![1200000]⟩
abbrev S100000x64 : Shape := ⟨2, ![100000, 64]⟩
abbrev S1200000x1 : Shape := ⟨2, ![1200000, 1]⟩
abbrev S_ : Shape := ⟨0, ![]⟩
abbrev S1200000x64 : Shape := ⟨2, ![1200000, 64]⟩

abbrev nBuf : Space → Nat
  | .hbm => 22
  | .vmem => 0
  | .smem => 0
  | _ => 0

abbrev bufTy : (tb : Table) → Fin (tcTables nBuf tb) → BufTy
  | .hbm, ⟨0, _⟩ => ⟨S100000x256, .f32⟩
  | .hbm, ⟨1, _⟩ => ⟨S256x64, .f32⟩
  | .hbm, ⟨2, _⟩ => ⟨S1200000, .i32⟩
  | .hbm, ⟨3, _⟩ => ⟨S1200000, .i32⟩
  | .hbm, ⟨4, _⟩ => ⟨S1200000, .f32⟩
  | .hbm, ⟨5, _⟩ => ⟨S100000x64, .f32⟩
  | .hbm, ⟨6, _⟩ => ⟨S1200000x1, .f32⟩
  | .hbm, ⟨7, _⟩ => ⟨S_, .i32⟩
  | .hbm, ⟨8, _⟩ => ⟨S1200000, .i32⟩
  | .hbm, ⟨9, _⟩ => ⟨S1200000, .i1⟩
  | .hbm, ⟨10, _⟩ => ⟨S_, .i32⟩
  | .hbm, ⟨11, _⟩ => ⟨S1200000, .i32⟩
  | .hbm, ⟨12, _⟩ => ⟨S1200000, .i32⟩
  | .hbm, ⟨13, _⟩ => ⟨S1200000, .i32⟩
  | .hbm, ⟨14, _⟩ => ⟨S1200000x1, .i32⟩
  | .hbm, ⟨15, _⟩ => ⟨S1200000x64, .f32⟩
  | .hbm, ⟨16, _⟩ => ⟨S1200000x64, .f32⟩
  | .hbm, ⟨17, _⟩ => ⟨S1200000x64, .f32⟩
  | .hbm, ⟨18, _⟩ => ⟨S_, .f32⟩
  | .hbm, ⟨19, _⟩ => ⟨S100000x64, .f32⟩
  | .hbm, ⟨20, _⟩ => ⟨S1200000x1, .i32⟩
  | .hbm, ⟨21, _⟩ => ⟨S100000x64, .f32⟩
  | _, _ => ⟨S100000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_c : Ref sig .tc := ⟨.hbm, 7, rfl⟩
abbrev main_v2 : Ref sig .tc := ⟨.hbm, 8, rfl⟩
abbrev main_v3 : Ref sig .tc := ⟨.hbm, 9, rfl⟩
abbrev main_c_0 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩

abbrev nD : Nat := 1
abbrev τ : Topo := Topo.v7x

variable {F : FTy → Type} [FloatOps F]

class Facts₀ : Prop where
  bcast_S1200000_S1200000x1_0 : S1200000.BroadcastsInDim S1200000x1 (![0] : Fin 1 → Fin S1200000x1.rank)
  bcast_S_S1200000 : S_.BroadcastsInDim S1200000 (![] : Fin 0 → Fin S1200000.rank)
  bcast_S1200000x1_S1200000x64_0_1 : S1200000x1.BroadcastsInDim S1200000x64 (![0, 1] : Fin 2 → Fin S1200000x64.rank)
  bcast_S_S100000x64 : S_.BroadcastsInDim S100000x64 (![] : Fin 0 → Fin S100000x64.rank)
  dot_S100000x256_S256x64_S100000x64_1_0_0_1_n_n_wf : DotDims.WF S100000x256 S256x64 S100000x64 [1] [0] [0] [1] [] []
  gather_S100000x64_S1200000x1_S1200000x64_1_0_n_n_0_1_164_wf : GatherDims.WF S100000x64 S1200000x1 S1200000x64 [1] [0] [] [0] [] 1 ![1, 64]
  scatter_S100000x64_S1200000x1_S1200000x64_1_0_0_1_wf : ScatterDims.WF S100000x64 S1200000x1 S1200000x64 [1] [0] [0] 1

variable [Facts₀]

def dot_S100000x256_S256x64_S100000x64_1_0_0_1_n_n : DotDims S100000x256 S256x64 S100000x64 where
  lhsContracting := [1]
  rhsContracting := [0]
  lhsNonContracting := [0]
  rhsNonContracting := [1]
  lhsBatch := []
  rhsBatch := []
  wf := dot_S100000x256_S256x64_S100000x64_1_0_0_1_n_n_wf
def gather_S100000x64_S1200000x1_S1200000x64_1_0_n_n_0_1_164 : GatherDims S100000x64 S1200000x1 S1200000x64 where
  offsetDims := [1]
  collapsedSliceDims := [0]
  operandBatchingDims := []
  startIndicesBatchingDims := []
  startIndexMap := [0]
  indexVectorDim := 1
  sliceSizes := ![1, 64]
  wf := gather_S100000x64_S1200000x1_S1200000x64_1_0_n_n_0_1_164_wf
def scatter_S100000x64_S1200000x1_S1200000x64_1_0_0_1 : ScatterDims S100000x64 S1200000x1 S1200000x64 where
  updateWindowDims := [1]
  insertedWindowDims := [0]
  scatterDimsToOperandDims := [0]
  indexVectorDim := 1
  wf := scatter_S100000x64_S1200000x1_S1200000x64_1_0_0_1_wf

class Facts : Prop extends Facts₀ where

variable [Facts]
-- ==== Proof.LibMatmul.lean ====
/-
  A plain matrix product's contraction as a sum over the shared axis.

  For dimension numbers that contract the left operand's axis 1 with the right operand's axis 0, with no batch axis
  (rows × shared axis times shared axis × columns), the contraction index is one coordinate `k` below the shared
  extent; the left factor of the product at the output index (r, c) is the left operand at (r, k) and the right factor
  the right operand at (k, c).  So the sum over the contraction index is `∑ k, l (r, k) * r' (k, c)`.
  Both a matrix unit's product into a zero accumulator and a host `dot_general` are, on the extended reals, that sum
  over their own dimension numbers; this file reads both as the same `Fin`-indexed sum.
-/
import Idealize.ShloMosaic.Lib.ValueIdx
import Idealize.ShloMosaic.PureOps.Ideal.Laws

noncomputable section

open scoped BigOperators

namespace Cert.Layer.Matmul

open Idealize.ShloMosaic Idealize.ShloMosaic.ValueIdx

/-- The sum over a plain product's contraction index is the sum over the shared axis' coordinate of the left operand
    at (row, k) times the right operand at (k, column). -/
theorem plain_contr_sum {M K N : Nat} (d : DotDims ⟨2, ![M, K]⟩ ⟨2, ![K, N]⟩ ⟨2, ![M, N]⟩)
    (hlc : d.lhsContracting = [1]) (hrc : d.rhsContracting = [0])
    (hln : d.lhsNonContracting = [0]) (hrn : d.rhsNonContracting = [1])
    (hlb : d.lhsBatch = []) (hrb : d.rhsBatch = [])
    (l : (⟨2, ![M, K]⟩ : Shape).Idx → EReal) (r : (⟨2, ![K, N]⟩ : Shape).Idx → EReal)
    (j : (⟨2, ![M, N]⟩ : Shape).Idx) :
    ∑ k : d.contr.Idx, l (d.lhsIdx j k) * r (d.rhsIdx j k) = ∑ k : Fin K, l (ix2 (n0 := M) (n1 := K) (j 0) k) * r (ix2 (n0 := K) (n1 := N) k (j 1)) := by
  obtain ⟨lc, rc, ln, rn, lb, rb, wf⟩ := d
  dsimp only at hlc hrc hln hrn hlb hrb
  subst hlc hrc hln hrn hlb hrb
  generalize hD : (⟨[1], [0], [0], [1], [], [], wf⟩ : DotDims ⟨2, ![M, K]⟩ ⟨2, ![K, N]⟩ ⟨2, ![M, N]⟩) = D
  have hr : D.contr.rank = 1 := by subst hD; rfl
  have hs : D.contr.size ⟨0, by omega⟩ = K := by subst hD; rfl
  have hlc : D.lhsContracting = [1] := by subst hD; rfl
  have hrc : D.rhsContracting = [0] := by subst hD; rfl
  rw [← Equiv.sum_comp (contrEquiv1 D K hr hs).symm]
  refine Finset.sum_congr rfl fun k _ => ?_
  have hk := contrEquiv1_symm_val D K hr hs k
  have el : D.lhsIdx j ((contrEquiv1 D K hr hs).symm k) = ix2 (n0 := M) (n1 := K) (j 0) k := funext fun a => Fin.ext (by
    match a with
    | ⟨0, _⟩ =>
      subst hD
      show (DotDims.lhsIdx _ j _ ⟨0, _⟩).val = (j 0).val
      unfold DotDims.lhsIdx
      split
      · rename_i hb; exact absurd hb List.not_mem_nil
      · split
        · rfl
        · rename_i hn; exact absurd (List.mem_singleton.mpr rfl) hn
    | ⟨1, _⟩ => exact (D.lhsIdx_val_of_single hlc j _).trans hk)
  have er : D.rhsIdx j ((contrEquiv1 D K hr hs).symm k) = ix2 (n0 := K) (n1 := N) k (j 1) := funext fun a => Fin.ext (by
    match a with
    | ⟨0, _⟩ => exact (D.rhsIdx_val_of_single hrc j _).trans hk
    | ⟨1, _⟩ =>
      subst hD
      show (DotDims.rhsIdx _ j _ ⟨1, _⟩).val = (j 1).val
      unfold DotDims.rhsIdx
      split
      · rename_i hb; exact absurd hb List.not_mem_nil
      · split
        · rfl
        · rename_i hn; exact absurd (List.mem_singleton.mpr rfl) hn)
  exact congrArg₂ (· * ·) (congrArg l el) (congrArg r er)

end Cert.Layer.Matmul

end
-- ==== Proof.BlockProduct.lean ====
/-
  One row block of the feature transform.

  The kernel multiplies a block of 5000 rows of X by the whole of W on the matrix unit, after casting both to a
  narrower float format, and adds the product to an accumulator of zeros.  On the extended reals a change of float
  format is the identity and 0 + s = s, so the block's entry at (p, q) is the plain sum over the 256 shared
  coordinates k of x (p, k) · w (k, q).
-/
import proofs.«133726_j78219944394958_1_alg».proof.Proof.Gen.KernelIdeal.Skeleton
import proofs.«133726_j78219944394958_1_alg».proof.Proof.LibMatmul

noncomputable section

open scoped BigOperators

namespace Cert.GraphConv.Block

open Idealize.ShloMosaic Idealize.ShloMosaic.ValueIdx Cert.KernelIdeal Cert.KernelIdeal.Gen

/-- The stored block at (p, q): the sum over k of the row block at (p, k) times the weights at (k, q). -/
theorem block_product (x : Vec Ideal S5000x256 .f32) (w : Vec Ideal S256x64 .f32) (j : S5000x64.Idx) :
    k0_pay1 (F := Ideal) x w j
      = ∑ k : Fin 256, x (ix2 (n0 := 5000) (n1 := 256) (j 0) k) * w (ix2 (n0 := 256) (n1 := 64) k (j 1)) := by
  unfold k0_pay1
  refine (Ideal.matmul_constant_zero_apply dot_S5000x256_S256x64_S5000x64_1_0_0_1_n_n none _ _ j).trans ?_
  exact Cert.Layer.Matmul.plain_contr_sum (M := 5000) (K := 256) (N := 64)
    dot_S5000x256_S256x64_S5000x64_1_0_0_1_n_n rfl rfl rfl rfl rfl rfl _ _ j

end Cert.GraphConv.Block

end
-- ==== Proof.Support.lean ====
/-
  The feature transform of a graph convolution.

  A graph-convolution layer computes  A · (X · W):  the node features X (100000 nodes, 256 features each) are
  first multiplied by the weight matrix W (256 × 64), and the resulting rows are then gathered along the edges,
  scaled by the edge weights and summed into the edges' target rows.

  This file names the first factor.  `support X W` at (node r, output feature c) is the sum over the 256 input
  features k of X (r, k) · W (k, c), on the extended reals.  Nothing here depends on how the product is tiled.
-/
import Idealize.ShloMosaic.Lib.ValueIdx
import Idealize.ShloMosaic.PureOps.Ideal.Laws

noncomputable section

open scoped BigOperators

namespace Cert.GraphConv

open Idealize.ShloMosaic Idealize.ShloMosaic.ValueIdx

/-- The transformed features: row r of X times W, at column c. -/
def support (X : (⟨2, ![100000, 256]⟩ : Shape).Idx → EReal) (W : (⟨2, ![256, 64]⟩ : Shape).Idx → EReal) :
    (⟨2, ![100000, 64]⟩ : Shape).Idx → EReal :=
  fun i => ∑ k : Fin 256, X (ix2 (n0 := 100000) (n1 := 256) (i 0) k) * W (ix2 (n0 := 256) (n1 := 64) k (i 1))

/-- The definition, read at an index. -/
theorem support_apply (X : (⟨2, ![100000, 256]⟩ : Shape).Idx → EReal) (W : (⟨2, ![256, 64]⟩ : Shape).Idx → EReal)
    (i : (⟨2, ![100000, 64]⟩ : Shape).Idx) :
    support X W i = ∑ k : Fin 256, X (ix2 (n0 := 100000) (n1 := 256) (i 0) k) * W (ix2 (n0 := 256) (n1 := 64) k (i 1)) := rfl

end Cert.GraphConv

end
-- ==== Proof.SupportArray.lean ====
/-
  The transformed features as one array.

  The feature transform runs over 20 grid points.  Point t stages rows 5000·t … 5000·t + 4999 of X (all 256
  columns) and the whole of W, and writes back rows 5000·t … 5000·t + 4999 of the result (all 64 columns).  By
  `block_product` the entry written at row p of that block, column q, is the sum over k of
  X (5000·t + p, k) · W (k, q): the block is the restriction of `support X W` to those rows.  Every row r of the
  result lies in the block of point r / 5000, so after the last point the whole array is `support X W`.
-/
import proofs.«133726_j78219944394958_1_alg».proof.Proof.Gen.KernelIdeal.Frame
import proofs.«133726_j78219944394958_1_alg».proof.Proof.BlockProduct
import proofs.«133726_j78219944394958_1_alg».proof.Proof.Support
import Idealize.ShloMosaic.Lib.Pipeline.Value

set_option maxRecDepth 16384

noncomputable section

open scoped BigOperators

namespace Cert.GraphConv.Rows

open Idealize.ShloMosaic Idealize.ShloMosaic.TcCoe Idealize.ShloMosaic.ValueIdx Idealize.SL.Sem
open Cert.KernelIdeal Cert.KernelIdeal.Gen Cert.GraphConv Cert.GraphConv.Block

variable (m : (ℓ : Loc nD τ sig) → Buf (Elt Ideal) ℓ)

/-- Every access of the body starts at the origin of its staging buffer. -/
theorem origin : (![0, 0] : Fin 2 → Nat) = fun _ => 0 := funext fun a => by fin_cases a <;> rfl

/-- The block index maps at each of the 20 points: the row blocks of X and of the result move with the point, the
    column blocks stay at 0, and W's one block stays at (0, 0). -/
theorem block_indices : ∀ t : Fin cfg0.N,
    win0_0.index t (0 : Fin 2) = win0_2.index t (0 : Fin 2) ∧ win0_0.index t (1 : Fin 2) = 0
    ∧ win0_1.index t (0 : Fin 2) = 0 ∧ win0_1.index t (1 : Fin 2) = 0
    ∧ win0_2.index t (1 : Fin 2) = 0 :=
  (by decide +kernel : ∀ t : Fin grid0.N, _)

/-- Every one of the 20 row blocks of the result is some point's. -/
theorem point_of_block : ∀ b : Fin 20, ∃ t : Fin cfg0.N, win0_2.index t = ![b.val, 0] :=
  (by decide +kernel : ∀ b : Fin 20, ∃ t : Fin grid0.N, win0_2.index t = ![b.val, 0])

/-- What point t writes back is the restriction of `support X W` to the point's rows. -/
theorem flushed_rows (c : Dev nD) (t : Fin cfg0.N) :
    (dats m 0 c).flushed 2 t
      = ((cfg0.win 2).blk t).view.read (Elt Ideal) (support (V m c main_arg0) (V m c main_arg1)) := by
  show (cfg0.win 2).cut (grid0.coords t) ((dats m 0 c).after 2 t) = _
  rw [after0_2]
  unfold out0_2
  rw [View.canon_unit_zero origin]
  simp only [View.ld_unit_zero (S := S5000x256) origin, View.ld_unit_zero (S := S256x64) origin]
  obtain ⟨e00, e01, e10, e11, e21⟩ := block_indices t
  funext j
  show k0_pay1 (iblk m c 0 t) (iblk m c 1 t) j
    = support (V m c main_arg0) (V m c main_arg1) (((cfg0.win 2).blk t).view.emb j)
  refine (block_product (iblk m c 0 t) (iblk m c 1 t) j).trans ?_
  rw [support_apply]
  refine Finset.sum_congr rfl fun k _ => ?_
  have hx : ((cfg0.win 0).blk t).view.emb (ix2 (n0 := 5000) (n1 := 256) (j 0) k)
      = ix2 (n0 := 100000) (n1 := 256) ((((cfg0.win 2).blk t).view.emb j) 0) k := by
    funext a; apply Fin.ext
    match a with
    | ⟨0, _⟩ =>
      show win0_0.index t (0 : Fin 2) * 5000 + 1 * (j 0).val = win0_2.index t (0 : Fin 2) * 5000 + 1 * (j 0).val
      omega
    | ⟨1, _⟩ =>
      show win0_0.index t (1 : Fin 2) * 256 + 1 * k.val = k.val
      omega
  have hw : ((cfg0.win 1).blk t).view.emb (ix2 (n0 := 256) (n1 := 64) k (j 1))
      = ix2 (n0 := 256) (n1 := 64) k ((((cfg0.win 2).blk t).view.emb j) 1) := by
    funext a; apply Fin.ext
    match a with
    | ⟨0, _⟩ =>
      show win0_1.index t (0 : Fin 2) * 256 + 1 * k.val = k.val
      omega
    | ⟨1, _⟩ =>
      show win0_1.index t (1 : Fin 2) * 64 + 1 * (j 1).val = win0_2.index t (1 : Fin 2) * 64 + 1 * (j 1).val
      omega
  exact congrArg₂ (HMul.hMul (α := EReal) (β := EReal) (γ := EReal))
    (congrArg (V m c main_arg0) hx) (congrArg (V m c main_arg1) hw)

/-- An index of the result lies in point t's block iff each coordinate lies in the block's range on its axis. -/
theorem mem_rows (t : Fin cfg0.N) (i : S100000x64.Idx) :
    i ∈ ((cfg0.win 2).blk t).view.set
      ↔ ∀ a : Fin 2, win0_2.index t a * S5000x64.size a ≤ (i a).val
          ∧ (i a).val < win0_2.index t a * S5000x64.size a + S5000x64.size a := by
  show i ∈ ((View.whole main_v0).slice (win0_2.rect t)).set ↔ _
  rw [View.set_slice_whole, Rect.mem_set_unit]
  exact Iff.rfl

/-- Row r of the result lies in the block of the point whose row block is r / 5000. -/
theorem rows_covered (i : S100000x64.Idx) :
    ∃ t : Fin cfg0.N, (cfg0.win 2).flush t = true ∧ i ∈ ((cfg0.win 2).blk t).view.set := by
  have hi0 : (i 0).val < 100000 := (i 0).isLt
  have hi1 : (i 1).val < 64 := (i 1).isLt
  obtain ⟨t, ht⟩ := point_of_block ⟨(i 0).val / 5000, by omega⟩
  have q0 : win0_2.index t (0 : Fin 2) = (i 0).val / 5000 := congrFun ht 0
  have q1 : win0_2.index t (1 : Fin 2) = 0 := congrFun ht 1
  refine ⟨t, flush0_2 t, ?_⟩
  rw [mem_rows]
  intro a
  match a with
  | ⟨0, _⟩ =>
    show win0_2.index t (0 : Fin 2) * 5000 ≤ (i 0).val ∧ (i 0).val < win0_2.index t (0 : Fin 2) * 5000 + 5000
    omega
  | ⟨1, _⟩ =>
    show win0_2.index t (1 : Fin 2) * 64 ≤ (i 1).val ∧ (i 1).val < win0_2.index t (1 : Fin 2) * 64 + 64
    omega

/-- After the last point the result array is `support X W` of the two argument arrays. -/
theorem support_array (c : Dev nD) :
    (dats m 0 c).arrAt 2 cfg0.N
      = support (m ((c : Thread nD τ).loc main_arg0)) (m ((c : Thread nD τ).loc main_arg1)) :=
  (dats m 0 c).arrAt_eq_of_cover 2 _ (fun t _ => flushed_rows m c t) rows_covered

end Cert.GraphConv.Rows

end
-- ==== Proof.Aggregate.lean ====
/-
  The aggregation over the edges, as one function of the transformed features.

  The second factor of the graph convolution: for every edge e, take row cols[e] of the transformed features (a
  negative index counted from the end, as array indexing does), scale it by the edge weight vals[e], and add it
  into row rows[e] of an array of zeros.  Both programs apply literally this chain of array operations to their
  transformed features, so it is named once here, as a function of those features and of the three edge arrays,
  and is never opened: two results of the same transformed features are equal whatever the chain computes.
-/
import proofs.«133726_j78219944394958_1_alg».proof.Proof.Gen.ReferenceIdeal
import Idealize.ShloMosaic.PureOps.Ideal

noncomputable section

namespace Cert.GraphConv

open Idealize.ShloMosaic Cert.ReferenceIdeal Cert.ReferenceIdeal.Gen

/-- Gather the rows `cols` of `s`, scale each by its edge weight, and sum them into the rows `rows` of zeros. -/
def aggregate (s : (⟨S100000x64, .f32⟩ : BufTy).Contents (Elt Ideal))
    (rows cols : (⟨S1200000, .i32⟩ : BufTy).Contents (Elt Ideal))
    (vals : (⟨S1200000, .f32⟩ : BufTy).Contents (Elt Ideal)) : (⟨S100000x64, .f32⟩ : BufTy).Contents (Elt Ideal) :=
  Host.scatterAdd (F := Ideal) scatter_S100000x64_S1200000x1_S1200000x64_1_0_0_1
    (broadcastInDim S100000x64 ![] bcast_S_S100000x64 (constant (F := Ideal) S_ .f32 0x00000000#32))
    (broadcastInDim S1200000x1 ![0] bcast_S1200000_S1200000x1_0 rows)
    (mulf (F := Ideal)
      (broadcastInDim S1200000x64 ![0, 1] bcast_S1200000x1_S1200000x64_0_1
        (broadcastInDim S1200000x1 ![0] bcast_S1200000_S1200000x1_0 vals))
      (Host.gather gather_S100000x64_S1200000x1_S1200000x64_1_0_n_n_0_1_164 s
        (broadcastInDim S1200000x1 ![0] bcast_S1200000_S1200000x1_0
          (select (cmpi .slt cols (broadcastInDim S1200000 ![] bcast_S_S1200000 (constantI S_ 32 0#32)))
            (addi cols (broadcastInDim S1200000 ![] bcast_S_S1200000 (constantI S_ 32 100000#32)))
            cols))))

end Cert.GraphConv

end
-- ==== Proof.KernelResult.lean ====
/-
  The kernel's result.

  After the 20 points of the feature transform the kernel's intermediate array holds `support X W`
  (`support_array`), and the three edge arrays are as launched: no point writes them.  The rest of the program is
  the aggregation over the edges, reading the intermediate array and the edge arrays, so the result is
  `aggregate (support X W) rows cols vals`.  The argument arrays end as they began.
-/
import proofs.«133726_j78219944394958_1_alg».proof.Proof.SupportArray
import proofs.«133726_j78219944394958_1_alg».proof.Proof.Aggregate
import Idealize.ShloMosaic.Lib.StableHlo.Run

set_option maxRecDepth 16384

noncomputable section

namespace Cert.GraphConv.Kernel

open Idealize.ShloMosaic Idealize.ShloMosaic.TcCoe Idealize.SL.Sem Idealize.ShloMosaic.StableHlo
open Cert.KernelIdeal Cert.KernelIdeal.Gen Cert.GraphConv Cert.GraphConv.Rows

variable (m : (ℓ : Loc nD τ sig) → Buf (Elt Ideal) ℓ) (ρ : Dev nD → PrngReg)

/-- The aggregation finds the transformed features in the intermediate array. -/
theorem features_found (c : Dev nD) :
    Pipeline.withArrays (cfgs 0).spec c (V0 m c) (fun w => (dats m 0 c).arrAt w (cfgs 0).N) (Proc.devRef .tc main_v0)
      = support (m ((c : Thread nD τ).loc main_arg0)) (m ((c : Thread nD τ).loc main_arg1)) :=
  (Pipeline.withArrays_arr spec0 launch0.win.arr_inj c _ _ 2).trans (support_array m c)

/-- It finds the target rows of the edges as launched. -/
theorem rows_found (c : Dev nD) :
    Pipeline.withArrays (cfgs 0).spec c (V0 m c) (fun w => (dats m 0 c).arrAt w (cfgs 0).N) (Proc.devRef .tc main_arg2)
      = m ((c : Thread nD τ).loc main_arg2) :=
  (Pipeline.withArrays_of_ne _ c (V0 m c) _ main_arg2
    (by exact (by decide : ∀ w, Pipeline.arrRef spec0 w ≠ main_arg2))).trans (V_main_arg2 m c)

/-- It finds the source rows of the edges as launched. -/
theorem cols_found (c : Dev nD) :
    Pipeline.withArrays (cfgs 0).spec c (V0 m c) (fun w => (dats m 0 c).arrAt w (cfgs 0).N) (Proc.devRef .tc main_arg3)
      = m ((c : Thread nD τ).loc main_arg3) :=
  (Pipeline.withArrays_of_ne _ c (V0 m c) _ main_arg3
    (by exact (by decide : ∀ w, Pipeline.arrRef spec0 w ≠ main_arg3))).trans (V_main_arg3 m c)

/-- It finds the edge weights as launched. -/
theorem weights_found (c : Dev nD) :
    Pipeline.withArrays (cfgs 0).spec c (V0 m c) (fun w => (dats m 0 c).arrAt w (cfgs 0).N) (Proc.devRef .tc main_arg4)
      = m ((c : Thread nD τ).loc main_arg4) :=
  (Pipeline.withArrays_of_ne _ c (V0 m c) _ main_arg4
    (by exact (by decide : ∀ w, Pipeline.arrRef spec0 w ≠ main_arg4))).trans (V_main_arg4 m c)

/-- The program's result: the aggregation over the edges of `support X W`. -/
theorem result_eq (c : Dev nD) :
    Pipeline.afterTail₀ cfgs (dats m) 0 (V0 m) [hostOps1] c main_v13
      = aggregate (support (m ((c : Thread nD τ).loc main_arg0)) (m ((c : Thread nD τ).loc main_arg1)))
          (m ((c : Thread nD τ).loc main_arg2)) (m ((c : Thread nD τ).loc main_arg3))
          (m ((c : Thread nD τ).loc main_arg4)) := by
  unfold Pipeline.afterTail₀
  show StableHlo.after hostOps1 _ (Proc.devRef .tc main_v13) = _
  after_results
  rw [features_found m c, rows_found m c, cols_found m c, weights_found m c]
  rfl

/-- Every weakly fair execution of the kernel's program terminates with its result at the aggregation of
    `support X W` and its five argument arrays unchanged. -/
theorem run : θ_run defs (onTc (τ := τ) (main (F := Ideal))) ⟨m, fun _ => 0, ρ⟩ fun r => ∀ c : Dev nD,
      r.2.mem ((c.tc : Thread nD τ).loc main_v13)
        = aggregate (support (m ((c.tc : Thread nD τ).loc main_arg0)) (m ((c.tc : Thread nD τ).loc main_arg1)))
            (m ((c.tc : Thread nD τ).loc main_arg2)) (m ((c.tc : Thread nD τ).loc main_arg3))
            (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c =>
    ⟨((h c).2 main_v13 (Pipeline.mem_restRefs_of main_v13 (by decide) (by decide))).trans (result_eq m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c)⟩)
    (run_main m ρ)

end Cert.GraphConv.Kernel

end
-- ==== Proof.ReferenceResult.lean ====
/-
  The reference's result.

  The reference multiplies X by W in one product over all 100000 rows; on the extended reals its entry at (r, c)
  is the sum over the shared coordinate k of X (r, k) · W (k, c), which is `support X W`.  The rest of the
  reference is the aggregation over the edges applied to that product.
-/
import proofs.«133726_j78219944394958_1_alg».proof.Proof.Gen.ReferenceIdeal.Read
import proofs.«133726_j78219944394958_1_alg».proof.Proof.Support
import proofs.«133726_j78219944394958_1_alg».proof.Proof.Aggregate

noncomputable section

open scoped BigOperators

namespace Cert.GraphConv.Reference

open Idealize.ShloMosaic Idealize.ShloMosaic.ValueIdx
open Cert.ReferenceIdeal Cert.ReferenceIdeal.Gen Cert.ReferenceIdeal.Read Cert.GraphConv

/-- The reference's product of X and W is `support X W`. -/
theorem product_eq_support (X : (⟨S100000x256, .f32⟩ : BufTy).Contents (Elt Ideal))
    (W : (⟨S256x64, .f32⟩ : BufTy).Contents (Elt Ideal)) :
    val_main_v0 (F := Ideal) X W = support X W := by
  funext i
  rw [val_main_v0_apply, support_apply]
  refine Finset.sum_congr rfl fun k _ => ?_
  have hl : lidx_main_v0 i k = ix2 (n0 := 100000) (n1 := 256) (i 0) k :=
    funext fun a => Fin.ext (by match a with | ⟨0, _⟩ => rfl | ⟨1, _⟩ => rfl)
  have hr : ridx_main_v0 i k = ix2 (n0 := 256) (n1 := 64) k (i 1) :=
    funext fun a => Fin.ext (by match a with | ⟨0, _⟩ => rfl | ⟨1, _⟩ => rfl)
  rw [hl, hr]

/-- The reference's result is the aggregation over the edges of `support X W`. -/
theorem result_eq (X : (⟨S100000x256, .f32⟩ : BufTy).Contents (Elt Ideal))
    (W : (⟨S256x64, .f32⟩ : BufTy).Contents (Elt Ideal))
    (rows cols : (⟨S1200000, .i32⟩ : BufTy).Contents (Elt Ideal))
    (vals : (⟨S1200000, .f32⟩ : BufTy).Contents (Elt Ideal)) :
    val_main_v13 (F := Ideal) X W rows cols vals = aggregate (support X W) rows cols vals := by
  rw [← product_eq_support]
  rfl

end Cert.GraphConv.Reference

end
-- ==== Proof.lean ====
/-
  A graph-convolution layer,  out = A · (X · W),  with the adjacency matrix A given by its edges.

  X holds 256 features for each of 100000 nodes, W is a 256 × 64 weight matrix, and the 1200000 edges are given as
  three arrays: target rows, source rows (`cols`) and weights.  Both programs first form the transformed features
  X · W and then, for every edge, add the source node's transformed row, scaled by the edge weight, into the
  target node's row of an array of zeros.

  The two programs differ only in how X · W is formed.  The kernel forms it 5000 rows at a time over 20 grid
  points, on the matrix unit, after casting both operands to a narrower float format and starting from an
  accumulator of zeros; the reference forms it as one product.  On the extended reals a change of float format is
  the identity and 0 + s = s, so every entry of either product is the same sum over the shared coordinate k of
  X (r, k) · W (k, c)  (`support`): for the kernel by `block_product` on each block and the cover of the 100000
  rows by the 20 blocks (`support_array`), for the reference by `product_eq_support`.  No law of the extended
  reals beyond 0 + s = s is used, so the precondition that the inputs be finite is never opened.

  The aggregation over the edges is the same chain of array operations in both programs, applied to the same
  transformed features and the same edge arrays; it is named once (`aggregate`) and never opened.

  The kernel's program is read twice, once over machine words and once over the extended reals; the second
  reading rewrites no operation of the first, so there is nothing to preserve.  Each of the
  three programs terminates without a fault and leaves its five argument arrays as it found them.
-/
import proofs.«133726_j78219944394958_1_alg».proof.Defs
import proofs.«133726_j78219944394958_1_alg».proof.Proof.Gen.Kernel
import proofs.«133726_j78219944394958_1_alg».proof.Proof.Gen.Kernel.Skeleton
import proofs.«133726_j78219944394958_1_alg».proof.Proof.Gen.Kernel.Launch
import proofs.«133726_j78219944394958_1_alg».proof.Proof.Gen.Kernel.Points
import proofs.«133726_j78219944394958_1_alg».proof.Proof.Gen.Kernel.Frame
import proofs.«133726_j78219944394958_1_alg».proof.Proof.Gen.KernelIdeal
import proofs.«133726_j78219944394958_1_alg».proof.Proof.Gen.KernelIdeal.Skeleton
import proofs.«133726_j78219944394958_1_alg».proof.Proof.Gen.KernelIdeal.Launch
import proofs.«133726_j78219944394958_1_alg».proof.Proof.Gen.KernelIdeal.Points
import proofs.«133726_j78219944394958_1_alg».proof.Proof.Gen.KernelIdeal.Frame
import proofs.«133726_j78219944394958_1_alg».proof.Proof.Gen.ReferenceIdeal
import proofs.«133726_j78219944394958_1_alg».proof.Proof.Gen.Pre_finite_inputs
import proofs.«133726_j78219944394958_1_alg».proof.Proof.Gen.ReferenceIdeal.Run
import proofs.«133726_j78219944394958_1_alg».proof.Proof.Gen.ReferenceIdeal.Read
import proofs.«133726_j78219944394958_1_alg».proof.Proof.KernelResult
import proofs.«133726_j78219944394958_1_alg».proof.Proof.ReferenceResult
import Idealize.ShloMosaic.Adequacy
import Idealize.ShloMosaic.Init

noncomputable section

namespace Cert.Proof

open Idealize.ShloMosaic Idealize.SL.Sem

/-- The kernel's program over machine words terminates and keeps its arguments. -/
theorem frame_words : Cert.frame_Kernel := fun m ρ _ => Cert.Kernel.Gen.frame m ρ

/-- The kernel's program over the extended reals terminates and keeps its arguments. -/
theorem frame_kernel : Cert.frame_KernelIdeal := fun m ρ _ => Cert.KernelIdeal.Gen.frame m ρ

/-- The reference terminates and keeps its arguments: its run, with the result forgotten. -/
theorem frame_reference : Cert.frame_ReferenceIdeal := fun m ρ _ =>
  (θ_run Cert.ReferenceIdeal.defs _ _).mono (fun _ h c => (h c).2) (Cert.ReferenceIdeal.Value.run (F := Ideal) m ρ)

/-- No operation is rewritten between the two readings of the kernel's program. -/
theorem preserves : Cert.preserves_Kernel_KernelIdeal := trivial

/-- From memories that agree on the five arguments both programs end with the aggregation over the edges of
    `support X W`: the kernel by `Kernel.run`, the reference by its run, `product_eq_support` and the agreement. -/
theorem algebraic : Cert.algebraic_KernelIdeal_ReferenceIdeal := by
  intro m ρ m' ρ' _ hagree
  refine ⟨_, Cert.GraphConv.Kernel.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v13_eq, Cert.GraphConv.Reference.result_eq,
    (hagree c).1, (hagree c).2.1, (hagree c).2.2.1, (hagree c).2.2.2.1, (hagree c).2.2.2.2]

theorem claim : Cert.Claim :=
  ⟨Cert.Kernel.Gen.facts, Cert.KernelIdeal.Gen.facts, Cert.ReferenceIdeal.Gen.facts, Cert.Pre_finite_inputs.Gen.facts,
    frame_words, frame_kernel, frame_reference, preserves, algebraic⟩

end Cert.Proof

end
